-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 91
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S1x64, .f32⟩
  | .hbm, ⟨90, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S256x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S128x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x1, .f32⟩
  | .local _ .vmem, ⟨24, _⟩ => ⟨S4000x1, .f32⟩
  | .local _ .vmem, ⟨25, _⟩ => ⟨S1x64, .f32⟩
  | .local _ .vmem, ⟨26, _⟩ => ⟨S4000x64, .f32⟩
  | .local _ .vmem, ⟨27, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_cst_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_12 : Ref sig .tc := ⟨.hbm, 63, rfl⟩
abbrev main_call3_v0 : Ref sig .tc := ⟨.hbm, 64, rfl⟩
abbrev main_call3_v1 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_15 : Ref sig .tc := ⟨.hbm, 76, rfl⟩
abbrev main_v44 : Ref sig .tc := ⟨.hbm, 77, rfl⟩
abbrev main_v45 : Ref sig .tc := ⟨.hbm, 78, rfl⟩
abbrev main_c_16 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_17 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x256, .f32⟩
  | .hbm, ⟨30, _⟩ => ⟨S100000x256, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.ResultRun.lean ====
/-
  The idealized kernel's run with its result array named.

  The program is four grid launches among stretches of host operations.  Its memory at the boundaries of those
  segments is a fold from the launch memory: a stretch of host operations leaves each buffer it writes at the
  operation's function of its operands, a launch leaves each of its arrays at what its write-backs leave and every
  other buffer alone.  The last boundary's contents are `Gen.W16`.  The run below is launched exactly as the frame
  run is — the same segments, the same thread state at every boundary — and reads at the end not only the seven
  arguments but also the result array `main_v55`, which therefore ends at `Gen.W16 … main_v55`: the array that
  the fourth launch's write-backs leave.  The value modules say what that array is.
-/
import proofs.«139233_j22849226015225_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents, and the seven arguments end as launched. -/
theorem run : θ_run defs (onTc (τ := τ) (main (F := F))) ⟨m, fun _ => 0, ρ⟩ (fun r => ∀ c : Dev nD,
      r.2.mem ((c.tc : Thread nD τ).loc main_v55) = W16 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v55 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c)⟩)

end Cert.KernelIdeal.ResultRun

end
-- ==== Proof.GraphOps.lean ====
/-
  The part of the computation that both programs carry out with the same host operations.

  A graph convolution layer with symmetric normalisation computes, for node features X, weights W and bias b,
      D_in^(-1/2) · Aᵀ · ((D_out^(-1/2) · X) · W) + b,
  where A is given as two lists of 1600000 node indices (the sources and the destinations of the edges) and D_out,
  D_in count how often a node occurs in each list, never less than one.
  * degreeScale idx is the vector max(1, count of each node in idx)^(-1/2): a scatter-add of ones, a clamp, a power.
  * aggregate y src dst gathers row src[e] of y for every edge e (an index below zero is first shifted by the number
    of nodes) and adds it into row dst[e] of a zero matrix: the product with Aᵀ.
  Both programs apply exactly these host operations; they differ only in how the dense products around them are
  computed.  Nothing about these operations is used except that both programs apply the same ones to the same indices.
-/
import proofs.«139233_j22849226015225_1_alg».proof.Proof.Gen.ReferenceIdeal

noncomputable section

namespace Cert.GraphOps

open Cert.ReferenceIdeal Cert.ReferenceIdeal.Gen Idealize.ShloMosaic

variable {F : FTy → Type} [FloatOps F]

/-- max(1, number of occurrences of each node in idx)^(-1/2), one entry per node. -/
def degreeScale (idx : (⟨S1600000, .i32⟩ : BufTy).Contents (Elt F)) : (⟨S100000, .f32⟩ : BufTy).Contents (Elt F) :=
  Host.powf
    (maximumf
      (broadcastInDim S100000 ![] bcast_S_S100000 (id (constant (F := F) S_ .f32 0x3F800000#32)))
      (Host.scatterAdd scatter_S100000_S1600000x1_S1600000_n_0_0_1
        (broadcastInDim S100000 ![] bcast_S_S100000 (constant (F := F) S_ .f32 0x00000000#32))
        (broadcastInDim S1600000x1 ![0] bcast_S1600000_S1600000x1_0 idx)
        (broadcastInDim S1600000 ![] bcast_S_S1600000 (constant (F := F) S_ .f32 0x3F800000#32))))
    (broadcastInDim S100000 ![] bcast_S_S100000 (constant (F := F) S_ .f32 0xBF000000#32))

/-- The source indices with the negative ones shifted by the number of nodes, as a column. -/
def wrappedSources (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows of y gathered at the sources and summed at the destinations, 128 columns. -/
def aggregate128 (y : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 y (wrappedSources src))

/-- The same with 64 columns. -/
def aggregate64 (y : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 y (wrappedSources src))

end Cert.GraphOps

end
-- ==== Proof.Boundaries.lean ====
/-
  What each of the four launches finds in the buffers it reads.

  The program's memory at the boundaries between its segments is a fold from the launch memory (the generated
  W0 … W16).  Reading the fold through a stretch of host operations gives, at a buffer the stretch writes, the
  operations' functions applied to what the stretch found, and at any other buffer what was there; reading it through
  a launch gives, at a buffer that is none of the launch's arrays, what was there.  So:
  * the seven arguments hold their launch contents at every boundary;
  * the two columns of row scales are the degree scales of the source and of the destination indices, reshaped
    from a vector to a column — computed once before the first launch and once more, from the same indices, before
    the third;
  * the matrix the second (fourth) launch scales is the aggregate of the first (third) launch's result array;
  * the bias rows are the bias vectors reshaped.
  Everything here holds at every float instance.
-/
import proofs.«139233_j22849226015225_1_alg».proof.Proof.Gen.KernelIdeal.Frame
import proofs.«139233_j22849226015225_1_alg».proof.Proof.GraphOps
import Idealize.ShloMosaic.Lib.StableHlo.Run

noncomputable section

set_option maxRecDepth 16384

namespace Cert.KernelIdeal.Boundaries

open Cert.KernelIdeal Cert.KernelIdeal.Gen Idealize.ShloMosaic Idealize.ShloMosaic.TcCoe Idealize.SL.Sem
open Idealize.ShloMosaic.StableHlo Cert.GraphOps

variable {F : FTy → Type} [FloatOps F]
variable (m : (ℓ : Loc nD τ sig) → Buf (Elt F) ℓ) (ρ : Dev nD → PrngReg)

/-! ## Before the first launch -/

theorem W5_arg0 (c : Dev nD) : W5 m ρ c (Proc.devRef .tc main_arg0) = m ((c : Thread nD τ).loc main_arg0) := by
  dsimp only [W5, W4, W3, W2, W1, hostOps0_4, hostOps0_3, hostOps0_2, hostOps0_1, hostOps0]
  after_results_simp <;> rfl
theorem W5_arg1 (c : Dev nD) : W5 m ρ c (Proc.devRef .tc main_arg1) = m ((c : Thread nD τ).loc main_arg1) := by
  dsimp only [W5, W4, W3, W2, W1, hostOps0_4, hostOps0_3, hostOps0_2, hostOps0_1, hostOps0]
  after_results_simp <;> rfl
theorem W5_arg2 (c : Dev nD) : W5 m ρ c (Proc.devRef .tc main_arg2) = m ((c : Thread nD τ).loc main_arg2) := by
  dsimp only [W5, W4, W3, W2, W1, hostOps0_4, hostOps0_3, hostOps0_2, hostOps0_1, hostOps0]
  after_results_simp <;> rfl
theorem W5_arg3 (c : Dev nD) : W5 m ρ c (Proc.devRef .tc main_arg3) = m ((c : Thread nD τ).loc main_arg3) := by
  dsimp only [W5, W4, W3, W2, W1, hostOps0_4, hostOps0_3, hostOps0_2, hostOps0_1, hostOps0]
  after_results_simp <;> rfl
theorem W5_arg4 (c : Dev nD) : W5 m ρ c (Proc.devRef .tc main_arg4) = m ((c : Thread nD τ).loc main_arg4) := by
  dsimp only [W5, W4, W3, W2, W1, hostOps0_4, hostOps0_3, hostOps0_2, hostOps0_1, hostOps0]
  after_results_simp <;> rfl
theorem W5_arg5 (c : Dev nD) : W5 m ρ c (Proc.devRef .tc main_arg5) = m ((c : Thread nD τ).loc main_arg5) := by
  dsimp only [W5, W4, W3, W2, W1, hostOps0_4, hostOps0_3, hostOps0_2, hostOps0_1, hostOps0]
  after_results_simp <;> rfl
theorem W5_arg6 (c : Dev nD) : W5 m ρ c (Proc.devRef .tc main_arg6) = m ((c : Thread nD τ).loc main_arg6) := by
  dsimp only [W5, W4, W3, W2, W1, hostOps0_4, hostOps0_3, hostOps0_2, hostOps0_1, hostOps0]
  after_results_simp <;> rfl

/-- The column of out-degree scales. -/
theorem W5_v11 (c : Dev nD) : W5 m ρ c (Proc.devRef .tc main_v11)
    = shapeCast S100000x1 (degreeScale (m ((c : Thread nD τ).loc main_arg1))) shapeCasts_S100000_S100000x1 := by
  dsimp only [W5, W4, W3, W2, W1, hostOps0_4, hostOps0_3, hostOps0_2, hostOps0_1, hostOps0]
  after_results_simp <;> rfl
/-- The column of in-degree scales. -/
theorem W5_v14 (c : Dev nD) : W5 m ρ c (Proc.devRef .tc main_v14)
    = shapeCast S100000x1 (degreeScale (m ((c : Thread nD τ).loc main_arg2))) shapeCasts_S100000_S100000x1 := by
  dsimp only [W5, W4, W3, W2, W1, hostOps0_4, hostOps0_3, hostOps0_2, hostOps0_1, hostOps0]
  after_results_simp <;> rfl

/-! ## After the first launch -/

theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_v14 (c : Dev nD) : W6 m ρ c (Proc.devRef .tc main_v14)
    = shapeCast S100000x1 (degreeScale (m ((c : Thread nD τ).loc main_arg2))) shapeCasts_S100000_S100000x1 :=
  (W6_of_ne m ρ c main_v14 (by decide)).trans (W5_v14 m ρ c)
/-- The first launch's result array is what its write-backs leave. -/
theorem W6_v15 (c : Dev nD) : W6 m ρ c (Proc.devRef .tc main_v15) = (dat0 (V5 m ρ) c).arrAt 3 cfg0.N := W6_arr m ρ c 3

/-! ## Before the second launch -/

theorem W7_arg1 (c : Dev nD) : W7 m ρ c (Proc.devRef .tc main_arg1) = m ((c : Thread nD τ).loc main_arg1) := by
  refine Eq.trans ?_ (W6_arg1 m ρ c)
  dsimp only [W7, hostOps1]
  after_results_simp <;> rfl
theorem W7_arg2 (c : Dev nD) : W7 m ρ c (Proc.devRef .tc main_arg2) = m ((c : Thread nD τ).loc main_arg2) := by
  refine Eq.trans ?_ (W6_arg2 m ρ c)
  dsimp only [W7, hostOps1]
  after_results_simp <;> rfl
theorem W7_arg5 (c : Dev nD) : W7 m ρ c (Proc.devRef .tc main_arg5) = m ((c : Thread nD τ).loc main_arg5) := by
  refine Eq.trans ?_ (W6_arg5 m ρ c)
  dsimp only [W7, hostOps1]
  after_results_simp <;> rfl
theorem W7_arg6 (c : Dev nD) : W7 m ρ c (Proc.devRef .tc main_arg6) = m ((c : Thread nD τ).loc main_arg6) := by
  refine Eq.trans ?_ (W6_arg6 m ρ c)
  dsimp only [W7, hostOps1]
  after_results_simp <;> rfl
/-- The matrix it scales: the aggregate of the first launch's result. -/
theorem W7_v25 (c : Dev nD) : W7 m ρ c (Proc.devRef .tc main_v25)
    = aggregate128 (W6 m ρ c (Proc.devRef .tc main_v15)) (m ((c : Thread nD τ).loc main_arg1)) (m ((c : Thread nD τ).loc main_arg2)) := by
  rw [← W6_arg1 m ρ c, ← W6_arg2 m ρ c]
  dsimp only [W7, hostOps1]
  after_results_simp <;> rfl
theorem W7_v14 (c : Dev nD) : W7 m ρ c (Proc.devRef .tc main_v14)
    = shapeCast S100000x1 (degreeScale (m ((c : Thread nD τ).loc main_arg2))) shapeCasts_S100000_S100000x1 := by
  refine Eq.trans ?_ (W6_v14 m ρ c)
  dsimp only [W7, hostOps1]
  after_results_simp <;> rfl
/-- The bias row. -/
theorem W7_v26 (c : Dev nD) : W7 m ρ c (Proc.devRef .tc main_v26) = shapeCast S1x128 (m ((c : Thread nD τ).loc main_arg4)) shapeCasts_S128_S1x128 := by
  rw [← W6_arg4 m ρ c]
  dsimp only [W7, hostOps1]
  after_results_simp <;> rfl

/-! ## After the second launch -/

theorem W8_arg1 (c : Dev nD) : W8 m ρ c (Proc.devRef .tc main_arg1) = m ((c : Thread nD τ).loc main_arg1) :=
  (W8_of_ne m ρ c main_arg1 (by decide)).trans (W7_arg1 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W8_v27 (c : Dev nD) : W8 m ρ c (Proc.devRef .tc main_v27) = (dat1 (V7 m ρ) c).arrAt 3 cfg1.N := W8_arr m ρ c 3

/-! ## Before the third launch -/

theorem W13_arg1 (c : Dev nD) : W13 m ρ c (Proc.devRef .tc main_arg1) = m ((c : Thread nD τ).loc main_arg1) := by
  refine Eq.trans ?_ (W8_arg1 m ρ c)
  dsimp only [W13, W12, W11, W10, W9, hostOps2_4, hostOps2_3, hostOps2_2, hostOps2_1, hostOps2]
  after_results_simp <;> rfl
theorem W13_arg2 (c : Dev nD) : W13 m ρ c (Proc.devRef .tc main_arg2) = m ((c : Thread nD τ).loc main_arg2) := by
  refine Eq.trans ?_ (W8_arg2 m ρ c)
  dsimp only [W13, W12, W11, W10, W9, hostOps2_4, hostOps2_3, hostOps2_2, hostOps2_1, hostOps2]
  after_results_simp <;> rfl
theorem W13_arg5 (c : Dev nD) : W13 m ρ c (Proc.devRef .tc main_arg5) = m ((c : Thread nD τ).loc main_arg5) := by
  refine Eq.trans ?_ (W8_arg5 m ρ c)
  dsimp only [W13, W12, W11, W10, W9, hostOps2_4, hostOps2_3, hostOps2_2, hostOps2_1, hostOps2]
  after_results_simp <;> rfl
theorem W13_arg6 (c : Dev nD) : W13 m ρ c (Proc.devRef .tc main_arg6) = m ((c : Thread nD τ).loc main_arg6) := by
  refine Eq.trans ?_ (W8_arg6 m ρ c)
  dsimp only [W13, W12, W11, W10, W9, hostOps2_4, hostOps2_3, hostOps2_2, hostOps2_1, hostOps2]
  after_results_simp <;> rfl
theorem W13_v27 (c : Dev nD) : W13 m ρ c (Proc.devRef .tc main_v27) = W8 m ρ c (Proc.devRef .tc main_v27) := by
  dsimp only [W13, W12, W11, W10, W9, hostOps2_4, hostOps2_3, hostOps2_2, hostOps2_1, hostOps2]
  after_results_simp <;> rfl
/-- The column of out-degree scales, computed again from the same indices. -/
theorem W13_v39 (c : Dev nD) : W13 m ρ c (Proc.devRef .tc main_v39)
    = shapeCast S100000x1 (degreeScale (m ((c : Thread nD τ).loc main_arg1))) shapeCasts_S100000_S100000x1 := by
  rw [← W8_arg1 m ρ c]
  dsimp only [W13, W12, W11, W10, W9, hostOps2_4, hostOps2_3, hostOps2_2, hostOps2_1, hostOps2]
  after_results_simp <;> rfl
/-- The column of in-degree scales, computed again. -/
theorem W13_v42 (c : Dev nD) : W13 m ρ c (Proc.devRef .tc main_v42)
    = shapeCast S100000x1 (degreeScale (m ((c : Thread nD τ).loc main_arg2))) shapeCasts_S100000_S100000x1 := by
  rw [← W8_arg2 m ρ c]
  dsimp only [W13, W12, W11, W10, W9, hostOps2_4, hostOps2_3, hostOps2_2, hostOps2_1, hostOps2]
  after_results_simp <;> rfl

/-! ## After the third launch -/

theorem W14_arg1 (c : Dev nD) : W14 m ρ c (Proc.devRef .tc main_arg1) = m ((c : Thread nD τ).loc main_arg1) :=
  (W14_of_ne m ρ c main_arg1 (by decide)).trans (W13_arg1 m ρ c)
theorem W14_arg2 (c : Dev nD) : W14 m ρ c (Proc.devRef .tc main_arg2) = m ((c : Thread nD τ).loc main_arg2) :=
  (W14_of_ne m ρ c main_arg2 (by decide)).trans (W13_arg2 m ρ c)
theorem W14_arg6 (c : Dev nD) : W14 m ρ c (Proc.devRef .tc main_arg6) = m ((c : Thread nD τ).loc main_arg6) :=
  (W14_of_ne m ρ c main_arg6 (by decide)).trans (W13_arg6 m ρ c)
theorem W14_v42 (c : Dev nD) : W14 m ρ c (Proc.devRef .tc main_v42)
    = shapeCast S100000x1 (degreeScale (m ((c : Thread nD τ).loc main_arg2))) shapeCasts_S100000_S100000x1 :=
  (W14_of_ne m ρ c main_v42 (by decide)).trans (W13_v42 m ρ c)
theorem W14_v43 (c : Dev nD) : W14 m ρ c (Proc.devRef .tc main_v43) = (dat2 (V13 m ρ) c).arrAt 3 cfg2.N := W14_arr m ρ c 3

/-! ## Before the fourth launch -/

/-- The matrix it scales: the aggregate of the third launch's result. -/
theorem W15_v53 (c : Dev nD) : W15 m ρ c (Proc.devRef .tc main_v53)
    = aggregate64 (W14 m ρ c (Proc.devRef .tc main_v43)) (m ((c : Thread nD τ).loc main_arg1)) (m ((c : Thread nD τ).loc main_arg2)) := by
  rw [← W14_arg1 m ρ c, ← W14_arg2 m ρ c]
  dsimp only [W15, hostOps3]
  after_results_simp <;> rfl
theorem W15_v42 (c : Dev nD) : W15 m ρ c (Proc.devRef .tc main_v42)
    = shapeCast S100000x1 (degreeScale (m ((c : Thread nD τ).loc main_arg2))) shapeCasts_S100000_S100000x1 := by
  refine Eq.trans ?_ (W14_v42 m ρ c)
  dsimp only [W15, hostOps3]
  after_results_simp <;> rfl
/-- The bias row. -/
theorem W15_v54 (c : Dev nD) : W15 m ρ c (Proc.devRef .tc main_v54) = shapeCast S1x64 (m ((c : Thread nD τ).loc main_arg6)) shapeCasts_S64_S1x64 := by
  rw [← W14_arg6 m ρ c]
  dsimp only [W15, hostOps3]
  after_results_simp <;> rfl

/-! ## After the fourth launch -/

/-- The program's result array is what the fourth launch's write-backs leave. -/
theorem W16_v55 (c : Dev nD) : W16 m ρ c (Proc.devRef .tc main_v55) = (dat3 (V15 m ρ) c).arrAt 3 cfg3.N := W16_arr m ρ c 3

end Cert.KernelIdeal.Boundaries

end
-- ==== Proof.ScaleMatmul1.lean ====
/-
  The first scale-and-multiply launch, one block.

  At a grid point the body loads a block x of 4000 rows of the feature matrix, the 4000 matching entries s of
  the column of row scales, and the whole weight matrix w; it multiplies every row of x by its scale and
  multiplies the result by w on the matrix unit, accumulating into zero.  Over the extended reals the two changes
  of float format in between are the identity and the accumulation into zero is a plain sum, so entry (p, q) of
  what the body stores is  Σ_k (x[p, k] · s[p, 0]) · w[k, q].
-/
import proofs.«139233_j22849226015225_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ScaleMatmul1

open Cert.KernelIdeal Cert.KernelIdeal.Gen Idealize.ShloMosaic Idealize.ShloMosaic.TcCoe
open Idealize.ShloMosaic.ValueIdx

/-- The contraction's left operand index at output (p, q) and contraction position r is (p, r). -/
theorem lhs_row (j : S4000x128.Idx) (r : dot_S4000x256_S256x128_S4000x128_1_0_0_1_n_n.contr.Idx) :
    (dot_S4000x256_S256x128_S4000x128_1_0_0_1_n_n.lhsIdx j r 0).val = (j 0).val := by
  unfold DotDims.lhsIdx
  rw [dif_neg (show ¬(0 : Fin S4000x256.rank) ∈ dot_S4000x256_S256x128_S4000x128_1_0_0_1_n_n.lhsBatch by decide),
    dif_pos (show (0 : Fin S4000x256.rank) ∈ dot_S4000x256_S256x128_S4000x128_1_0_0_1_n_n.lhsNonContracting by decide)]
  rfl
theorem lhs_col (j : S4000x128.Idx) (r : dot_S4000x256_S256x128_S4000x128_1_0_0_1_n_n.contr.Idx) :
    (dot_S4000x256_S256x128_S4000x128_1_0_0_1_n_n.lhsIdx j r 1).val = (r ⟨0, by decide⟩).val :=
  dot_S4000x256_S256x128_S4000x128_1_0_0_1_n_n.lhsIdx_val_of_single rfl j r
/-- The right operand index there is (r, q). -/
theorem rhs_row (j : S4000x128.Idx) (r : dot_S4000x256_S256x128_S4000x128_1_0_0_1_n_n.contr.Idx) :
    (dot_S4000x256_S256x128_S4000x128_1_0_0_1_n_n.rhsIdx j r 0).val = (r ⟨0, by decide⟩).val :=
  dot_S4000x256_S256x128_S4000x128_1_0_0_1_n_n.rhsIdx_val_of_single rfl j r
theorem rhs_col (j : S4000x128.Idx) (r : dot_S4000x256_S256x128_S4000x128_1_0_0_1_n_n.contr.Idx) :
    (dot_S4000x256_S256x128_S4000x128_1_0_0_1_n_n.rhsIdx j r 1).val = (j 1).val := by
  unfold DotDims.rhsIdx
  rw [dif_neg (show ¬(1 : Fin S256x128.rank) ∈ dot_S4000x256_S256x128_S4000x128_1_0_0_1_n_n.rhsBatch by decide),
    dif_pos (show (1 : Fin S256x128.rank) ∈ dot_S4000x256_S256x128_S4000x128_1_0_0_1_n_n.rhsNonContracting by decide)]
  rfl

/-- A column of 4000 scales broadcast along the 256 columns, read at (p, k), is the scale of row p. -/
theorem scale_bcast_apply (s : S4000x1.Idx → Elt Ideal .f32) (p : Fin 4000) (k : Fin 256) :
    broadcastTo S4000x256 (shapeCast S4000x1 s shapeCasts_S4000x1_S4000x1) broadcasts_S4000x1_S4000x256 (ix2 p k)
      = s (ix2 p (0 : Fin 1)) := by
  rw [shapeCast_self]
  exact broadcastTo_apply s broadcasts_S4000x1_S4000x256 (ix2 p k) (ix2 p (0 : Fin 1)) (fun a => match a with
    | ⟨0, _⟩ => by show p.val = if (4000 : Nat) = 1 then 0 else p.val; rw [if_neg (by decide)]
    | ⟨1, _⟩ => by show 0 = if (1 : Nat) = 1 then 0 else k.val; rw [if_pos rfl])

/-- What the body stores, at (p, q): the scaled row p of the block against column q of the weights. -/
theorem stored_apply (x : Vec Ideal S4000x256 .f32) (s : Vec Ideal S4000x1 .f32) (w : Vec Ideal S256x128 .f32)
    (p : Fin 4000) (q : Fin 128) :
    k0_pay1 (F := Ideal) x s w (ix2 p q) = ∑ k : Fin 256, (x (ix2 p k) * s (ix2 p (0 : Fin 1))) * w (ix2 k q) := by
  unfold k0_pay1
  refine (Ideal.matmul_constant_zero_apply dot_S4000x256_S256x128_S4000x128_1_0_0_1_n_n none _ _ (ix2 p q)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k :=
    funext fun a => Fin.ext (by
      match a with
      | ⟨0, _⟩ => exact lhs_row _ _
      | ⟨1, _⟩ => exact (lhs_col _ _).trans hk)
  have er : dot_S4000x256_S256x128_S4000x128_1_0_0_1_n_n.rhsIdx (ix2 p q) ((contrEquiv1 dot_S4000x256_S256x128_S4000x128_1_0_0_1_n_n 256 rfl rfl).symm k) = ix2 k q :=
    funext fun a => Fin.ext (by
      match a with
      | ⟨0, _⟩ => exact (rhs_row _ _).trans hk
      | ⟨1, _⟩ => exact rhs_col _ _)
  rw [el, er]
  show (x (ix2 p k) * broadcastTo S4000x256 (shapeCast S4000x1 s shapeCasts_S4000x1_S4000x1) broadcasts_S4000x1_S4000x256 (ix2 p k)) * w (ix2 k q) = _
  rw [scale_bcast_apply]

end Cert.KernelIdeal.ScaleMatmul1

end
-- ==== Proof.ScaleMatmul1Array.lean ====
/-
  The first scale-and-multiply launch, the whole array.

  The grid has 25 points; point t takes rows 4000·t … 4000·t + 3999 of the feature matrix and of the column of
  row scales, the whole weight matrix, and writes rows 4000·t … 4000·t + 3999 of the result.  The 25 row blocks
  tile the 100000 rows, so after the launch the result array is ONE function of the three arrays the launch found:
  entry (i, j) is  Σ_k (X[i, k] · S[i, 0]) · W[k, j].  This is stated for any contents V of the buffers at the
  moment the launch is entered.
-/
import proofs.«139233_j22849226015225_1_alg».proof.Proof.Gen.KernelIdeal.Frame
import proofs.«139233_j22849226015225_1_alg».proof.Proof.ScaleMatmul1
import Idealize.ShloMosaic.Lib.Pipeline.Value
import Idealize.ShloMosaic.Lib.ValueIdx

noncomputable section

set_option maxRecDepth 16384

namespace Cert.KernelIdeal.ScaleMatmul1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Rows of X scaled by the column S, times W. -/
def scaledProduct (X : S100000x256.Idx → Elt Ideal .f32) (S : S100000x1.Idx → Elt Ideal .f32)
    (W : S256x128.Idx → Elt Ideal .f32) : S100000x128.Idx → Elt Ideal .f32 :=
  fun i => ∑ k : Fin 256, (X (ix2 (⟨(i 0).val, (i 0).isLt⟩ : Fin 100000) k)
      * S (ix2 (⟨(i 0).val, (i 0).isLt⟩ : Fin 100000) (0 : Fin 1))) * W (ix2 k (⟨(i 1).val, (i 1).isLt⟩ : Fin 128))

/-- A block whose rows are rows b·4000 + p of X and of S stores rows b·4000 + p of the scaled product. -/
theorem block_apply (x : Vec Ideal S4000x256 .f32) (s : Vec Ideal S4000x1 .f32) (w : Vec Ideal S256x128 .f32)
    (X : S100000x256.Idx → Elt Ideal .f32) (S : S100000x1.Idx → Elt Ideal .f32) (W : S256x128.Idx → Elt Ideal .f32) (b : Nat)
    (hx : ∀ (p : Fin 4000) (k : Fin 256) (h : b * 4000 + p.val < 100000), x (ix2 p k) = X (ix2 (⟨b * 4000 + p.val, h⟩ : Fin 100000) k))
    (hs : ∀ (p : Fin 4000) (h : b * 4000 + p.val < 100000), s (ix2 p (0 : Fin 1)) = S (ix2 (⟨b * 4000 + p.val, h⟩ : Fin 100000) (0 : Fin 1)))
    (hw : ∀ (k : Fin 256) (q : Fin 128), w (ix2 k q) = W (ix2 k q))
    (p : Fin 4000) (q : Fin 128) (h : b * 4000 + p.val < 100000) :
    k0_pay1 (F := Ideal) x s w (ix2 p q) = scaledProduct X S W (ix2 (⟨b * 4000 + p.val, h⟩ : Fin 100000) q) := by
  rw [stored_apply]
  show _ = ∑ k : Fin 256, (X (ix2 (⟨b * 4000 + p.val, h⟩ : Fin 100000) k) * S (ix2 (⟨b * 4000 + p.val, h⟩ : Fin 100000) (0 : Fin 1))) * W (ix2 k q)
  refine Finset.sum_congr rfl fun k _ => ?_
  rw [hx p k h, hs p h, hw k q]

theorem zeros : (![0, 0] : Fin 2 → Nat) = fun _ => 0 := funext fun a => by fin_cases a <;> rfl

/-- The printed index maps over the 25 points: the three row windows sit at block row t, everything else at 0. -/
theorem points : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays the launch found. -/
theorem flushed_eq (c : Dev nD) (t : Fin cfg0.N) :
    (dat0 V c).flushed 3 t = ((cfg0.win 3).blk t).view.read (Elt Ideal)
      (scaledProduct (V c main_arg0) (V c main_v11) (V c main_arg3)) := by
  show (cfg0.win 3).cut (grid0.coords t) ((dat0 V c).after 3 t) = _
  rw [after0_3]
  unfold out0_3
  rw [View.canon_unit_zero zeros]
  simp only [View.ld_unit_zero (S := S4000x256) zeros, View.ld_unit_zero (S := S4000x1) zeros, View.ld_unit_zero (S := S256x128) zeros]
  obtain ⟨e00, e01, e10, e11, e20, e21, e30, e31⟩ := points t
  have ht : t.val < 25 := by have h := t.isLt; have hN : grid0.N = 25 := N_0; exact hN ▸ h
  refine funext fun (j : S4000x128.Idx) => ?_
  obtain ⟨p, q, rfl⟩ : ∃ (p : Fin 4000) (q : Fin 128), j = ix2 p q := ⟨j 0, j 1, eq_ix2 j⟩
  have hrow : t.val * 4000 + p.val < 100000 := by have := p.isLt; omega
  show k0_pay1 (F := Ideal) (iblk0 V c 0 t) (iblk0 V c 1 t) (iblk0 V c 2 t) (ix2 p q)
    = scaledProduct (V c main_arg0) (V c main_v11) (V c main_arg3) (((cfg0.win 3).blk t).view.emb (ix2 p q))
  have hi : ((cfg0.win 3).blk t).view.emb (ix2 p q) = ix2 (⟨t.val * 4000 + p.val, hrow⟩ : Fin 100000) q :=
    funext fun a => Fin.ext (by
      match a with
      | ⟨0, _⟩ => show win0_3.index t (0 : Fin 2) * 4000 + 1 * p.val = t.val * 4000 + p.val; omega
      | ⟨1, _⟩ => show win0_3.index t (1 : Fin 2) * 128 + 1 * q.val = q.val; omega)
  rw [hi]
  refine block_apply (iblk0 V c 0 t) (iblk0 V c 1 t) (iblk0 V c 2 t) (V c main_arg0) (V c main_v11) (V c main_arg3) t.val ?_ ?_ ?_ p q hrow
  · intro p k h
    show V c main_arg0 (((cfg0.win 0).blk t).view.emb (ix2 p k)) = V c main_arg0 _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  · intro p h
    show V c main_v11 (((cfg0.win 1).blk t).view.emb (ix2 p (0 : Fin 1))) = V c main_v11 _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 1 + 1 * 0 = 0; omega
  · intro k q
    show V c main_arg3 (((cfg0.win 2).blk t).view.emb (ix2 k q)) = V c main_arg3 _
    refine congrArg _ (funext fun a => Fin.ext ?_)
    match a with
    | ⟨0, _⟩ => show win0_2.index t (0 : Fin 2) * 256 + 1 * k.val = k.val; omega
    | ⟨1, _⟩ => show win0_2.index t (1 : Fin 2) * 128 + 1 * q.val = q.val; omega

/-- An index of the result array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v15).slice (win0_3.rect t)).set ↔ _
  rw [View.set_slice_whole, Rect.mem_set_unit]
  exact Iff.rfl

/-- Row i of the result is in the block of point i / 4000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 25 := N_0
  have hlt : (i 0).val / 4000 < grid0.N := by rw [hN]; omega
  obtain ⟨-, -, -, -, -, -, e30, e31⟩ := points ⟨(i 0).val / 4000, hlt⟩
  refine ⟨⟨(i 0).val / 4000, hlt⟩, flush0_3 _, ?_⟩
  rw [mem_blk]
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, hlt⟩ (1 : Fin 2) * 128 ≤ (i 1).val
      ∧ (i 1).val < win0_3.index ⟨(i 0).val / 4000, hlt⟩ (1 : Fin 2) * 128 + 128
    rw [e31]; omega

/-- After the launch the result array is the scaled product of the arrays the launch found. -/
theorem final (c : Dev nD) :
    (dat0 V c).arrAt 3 cfg0.N = scaledProduct (V c main_arg0) (V c main_v11) (V c main_arg3) :=
  (dat0 V c).arrAt_eq_of_cover 3 _ (fun t _ => flushed_eq V c t) cover

end Cert.KernelIdeal.ScaleMatmul1

end
-- ==== Proof.Epilogue1.lean ====
/-
  The first epilogue launch, one block.

  At a grid point the body loads a block a of 4000 rows of the aggregated matrix, the 4000 matching entries s of
  the column of row scales and the one row b of biases; it multiplies every row of a by its scale, adds the bias row
  and clamps below at zero.  Entry (p, q) of what it stores is  max (a[p, q] · s[p, 0] + b[0, q]) 0.
-/
import proofs.«139233_j22849226015225_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Epilogue1

open Cert.KernelIdeal Cert.KernelIdeal.Gen Idealize.ShloMosaic Idealize.ShloMosaic.TcCoe
open Idealize.ShloMosaic.ValueIdx

/-- A column of 4000 scales broadcast along the 128 columns, read at (p, q), is the scale of row p. -/
theorem scale_bcast_apply (s : S4000x1.Idx → Elt Ideal .f32) (p : Fin 4000) (q : Fin 128) :
    broadcastTo S4000x128 (shapeCast S4000x1 s shapeCasts_S4000x1_S4000x1) broadcasts_S4000x1_S4000x128 (ix2 p q)
      = s (ix2 p (0 : Fin 1)) := by
  rw [shapeCast_self]
  exact broadcastTo_apply s broadcasts_S4000x1_S4000x128 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A row of 128 biases broadcast along the 4000 rows, read at (p, q), is the bias of column q. -/
theorem bias_bcast_apply (b : S1x128.Idx → Elt Ideal .f32) (p : Fin 4000) (q : Fin 128) :
    broadcastTo S4000x128 (shapeCast S1x128 b shapeCasts_S1x128_S1x128) broadcasts_S1x128_S4000x128 (ix2 p q)
      = b (ix2 (0 : Fin 1) q) := by
  rw [shapeCast_self]
  exact broadcastTo_apply b broadcasts_S1x128_S4000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- What the body stores, at (p, q). -/
theorem stored_apply (a : Vec Ideal S4000x128 .f32) (s : Vec Ideal S4000x1 .f32) (b : Vec Ideal S1x128 .f32)
    (p : Fin 4000) (q : Fin 128) :
    k1_pay1 (F := Ideal) a s b (ix2 p q)
      = max (a (ix2 p q) * s (ix2 p (0 : Fin 1)) + b (ix2 (0 : Fin 1) q)) (Ideal.ofBits .f32 0x00000000#32) := by
  unfold k1_pay1
  show max (shapeCast S4000x128 a shapeCasts_S4000x128_S4000x128 (ix2 p q)
      * broadcastTo S4000x128 (shapeCast S4000x1 s shapeCasts_S4000x1_S4000x1) broadcasts_S4000x1_S4000x128 (ix2 p q)
      + broadcastTo S4000x128 (shapeCast S1x128 b shapeCasts_S1x128_S1x128) broadcasts_S1x128_S4000x128 (ix2 p q))
      (Ideal.ofBits .f32 0x00000000#32) = _
  rw [shapeCast_self, scale_bcast_apply, bias_bcast_apply]

end Cert.KernelIdeal.Epilogue1

end
-- ==== Proof.Epilogue1Array.lean ====
/-
  The first epilogue launch, the whole array.

  The grid has 25 points; point t takes rows 4000·t … 4000·t + 3999 of the aggregated matrix and of the column of
  row scales, the bias row, and writes the same rows of the result.  The row blocks tile the 100000 rows, so after
  the launch the result array is one function of the three arrays the launch found: entry (i, j) is
  max (A[i, j] · S[i, 0] + B[0, j]) 0.  Stated for any contents V of the buffers when the launch is entered.
-/
import proofs.«139233_j22849226015225_1_alg».proof.Proof.Gen.KernelIdeal.Frame
import proofs.«139233_j22849226015225_1_alg».proof.Proof.Epilogue1
import Idealize.ShloMosaic.Lib.Pipeline.Value
import Idealize.ShloMosaic.Lib.ValueIdx

noncomputable section

set_option maxRecDepth 16384

namespace Cert.KernelIdeal.Epilogue1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Rows of A scaled by the column S, plus the bias row B, clamped below at zero. -/
def scaledBiasedClamped (A : S100000x128.Idx → Elt Ideal .f32) (S : S100000x1.Idx → Elt Ideal .f32)
    (B : S1x128.Idx → Elt Ideal .f32) : S100000x128.Idx → Elt Ideal .f32 :=
  fun i => max (A (ix2 (⟨(i 0).val, (i 0).isLt⟩ : Fin 100000) (⟨(i 1).val, (i 1).isLt⟩ : Fin 128))
      * S (ix2 (⟨(i 0).val, (i 0).isLt⟩ : Fin 100000) (0 : Fin 1)) + B (ix2 (0 : Fin 1) (⟨(i 1).val, (i 1).isLt⟩ : Fin 128)))
    (Ideal.ofBits .f32 0x00000000#32)

/-- A block whose rows are rows b·4000 + p of A and of S stores rows b·4000 + p of the result. -/
theorem block_apply (a : Vec Ideal S4000x128 .f32) (s : Vec Ideal S4000x1 .f32) (bb : Vec Ideal S1x128 .f32)
    (A : S100000x128.Idx → Elt Ideal .f32) (S : S100000x1.Idx → Elt Ideal .f32) (B : S1x128.Idx → Elt Ideal .f32) (b : Nat)
    (ha : ∀ (p : Fin 4000) (q : Fin 128) (h : b * 4000 + p.val < 100000), a (ix2 p q) = A (ix2 (⟨b * 4000 + p.val, h⟩ : Fin 100000) q))
    (hs : ∀ (p : Fin 4000) (h : b * 4000 + p.val < 100000), s (ix2 p (0 : Fin 1)) = S (ix2 (⟨b * 4000 + p.val, h⟩ : Fin 100000) (0 : Fin 1)))
    (hb : ∀ (q : Fin 128), bb (ix2 (0 : Fin 1) q) = B (ix2 (0 : Fin 1) q))
    (p : Fin 4000) (q : Fin 128) (h : b * 4000 + p.val < 100000) :
    k1_pay1 (F := Ideal) a s bb (ix2 p q) = scaledBiasedClamped A S B (ix2 (⟨b * 4000 + p.val, h⟩ : Fin 100000) q) := by
  rw [stored_apply, ha p q h, hs p h, hb q]
  rfl

theorem zeros : (![0, 0] : Fin 2 → Nat) = fun _ => 0 := funext fun a => by fin_cases a <;> rfl

/-- The printed index maps over the 25 points: the three row windows sit at block row t, everything else at 0. -/
theorem points : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the result function of the arrays the launch found. -/
theorem flushed_eq (c : Dev nD) (t : Fin cfg1.N) :
    (dat1 V c).flushed 3 t = ((cfg1.win 3).blk t).view.read (Elt Ideal)
      (scaledBiasedClamped (V c main_v25) (V c main_v14) (V c main_v26)) := by
  show (cfg1.win 3).cut (grid1.coords t) ((dat1 V c).after 3 t) = _
  rw [after1_3]
  unfold out1_3
  rw [View.canon_unit_zero zeros]
  simp only [View.ld_unit_zero (S := S4000x128) zeros, View.ld_unit_zero (S := S4000x1) zeros, View.ld_unit_zero (S := S1x128) zeros]
  obtain ⟨e00, e01, e10, e11, e20, e21, e30, e31⟩ := points t
  have ht : t.val < 25 := by have h := t.isLt; have hN : grid1.N = 25 := N_1; exact hN ▸ h
  refine funext fun (j : S4000x128.Idx) => ?_
  obtain ⟨p, q, rfl⟩ : ∃ (p : Fin 4000) (q : Fin 128), j = ix2 p q := ⟨j 0, j 1, eq_ix2 j⟩
  have hrow : t.val * 4000 + p.val < 100000 := by have := p.isLt; omega
  show k1_pay1 (F := Ideal) (iblk1 V c 0 t) (iblk1 V c 1 t) (iblk1 V c 2 t) (ix2 p q)
    = scaledBiasedClamped (V c main_v25) (V c main_v14) (V c main_v26) (((cfg1.win 3).blk t).view.emb (ix2 p q))
  have hi : ((cfg1.win 3).blk t).view.emb (ix2 p q) = ix2 (⟨t.val * 4000 + p.val, hrow⟩ : Fin 100000) q :=
    funext fun a => Fin.ext (by
      match a with
      | ⟨0, _⟩ => show win1_3.index t (0 : Fin 2) * 4000 + 1 * p.val = t.val * 4000 + p.val; omega
      | ⟨1, _⟩ => show win1_3.index t (1 : Fin 2) * 128 + 1 * q.val = q.val; omega)
  rw [hi]
  refine block_apply (iblk1 V c 0 t) (iblk1 V c 1 t) (iblk1 V c 2 t) (V c main_v25) (V c main_v14) (V c main_v26) t.val ?_ ?_ ?_ p q hrow
  · intro p q h
    show V c main_v25 (((cfg1.win 0).blk t).view.emb (ix2 p q)) = V c main_v25 _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * q.val = q.val; omega
  · intro p h
    show V c main_v14 (((cfg1.win 1).blk t).view.emb (ix2 p (0 : Fin 1))) = V c main_v14 _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 1 + 1 * 0 = 0; omega
  · intro q
    show V c main_v26 (((cfg1.win 2).blk t).view.emb (ix2 (0 : Fin 1) q)) = V c main_v26 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega

/-- An index of the result array is in point t's block iff each coordinate is in the block's range on its axis. -/
theorem mem_blk (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v27).slice (win1_3.rect t)).set ↔ _
  rw [View.set_slice_whole, Rect.mem_set_unit]
  exact Iff.rfl

/-- Row i of the result is in the block of point i / 4000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 25 := N_1
  have hlt : (i 0).val / 4000 < grid1.N := by rw [hN]; omega
  obtain ⟨-, -, -, -, -, -, e30, e31⟩ := points ⟨(i 0).val / 4000, hlt⟩
  refine ⟨⟨(i 0).val / 4000, hlt⟩, flush1_3 _, ?_⟩
  rw [mem_blk]
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win1_3.index ⟨(i 0).val / 4000, hlt⟩ (1 : Fin 2) * 128 ≤ (i 1).val
      ∧ (i 1).val < win1_3.index ⟨(i 0).val / 4000, hlt⟩ (1 : Fin 2) * 128 + 128
    rw [e31]; omega

/-- After the launch the result array is that function of the arrays the launch found. -/
theorem final (c : Dev nD) :
    (dat1 V c).arrAt 3 cfg1.N = scaledBiasedClamped (V c main_v25) (V c main_v14) (V c main_v26) :=
  (dat1 V c).arrAt_eq_of_cover 3 _ (fun t _ => flushed_eq V c t) cover

end Cert.KernelIdeal.Epilogue1

end
-- ==== Proof.BridgeLayer1.lean ====
/-
  Layer 1: the launches' functions are the reference's stages.

  The reference computes the layer with host operations on whole arrays: it broadcasts the vector of out-degree
  scales along the 256 columns, multiplies the features by it, takes one whole matrix product with the weights,
  aggregates along the edges, broadcasts the vector of in-degree scales along the 128 columns, multiplies, adds the
  broadcast bias and clamps at zero.  The kernel's first launch computes, block of rows by block of rows, the matrix
  product of the scaled rows, reading the scales from a column; its second launch the scaled, biased, clamped
  aggregate, reading scales from a column and biases from a row.  Entry by entry these are the same expressions:
  * a vector reshaped to a column, read at (i, 0), is the vector at i — as is the vector broadcast to a column and
    then along the rows' entries; a vector reshaped to a row, read at (0, j), is the vector at j;
  * entry (i, j) of a matrix product is the sum over k of the left operand at (i, k) times the right at (k, j),
    whether it was computed whole or on 4000 rows at a time;
  no law of arithmetic is needed beyond that, so no entry needs to be finite.
-/
import proofs.«139233_j22849226015225_1_alg».proof.Proof.GraphOps
import proofs.«139233_j22849226015225_1_alg».proof.Proof.ScaleMatmul1Array
import proofs.«139233_j22849226015225_1_alg».proof.Proof.Epilogue1Array
import proofs.«139233_j22849226015225_1_alg».proof.Proof.Gen.ReferenceIdeal.Read
import Idealize.ShloMosaic.Lib.Pipeline.Value
import Idealize.ShloMosaic.Lib.ValueIdx

noncomputable section

namespace Cert.Bridge

open Cert.ReferenceIdeal Cert.ReferenceIdeal.Gen Cert.ReferenceIdeal.Read Cert.GraphOps
open Idealize.ShloMosaic Idealize.ShloMosaic.ValueIdx

/-! ## The reference's stages in terms of the shared operations (by unfolding) -/

section
variable {F : FTy → Type} [FloatOps F]

theorem outScale1 (x1 : (⟨S1600000, .i32⟩ : BufTy).Contents (Elt F)) : val_main_v10 (F := F) x1 = degreeScale x1 := rfl
theorem inScale1 (x2 : (⟨S1600000, .i32⟩ : BufTy).Contents (Elt F)) : val_main_v26 (F := F) x2 = degreeScale x2 := rfl
theorem aggregated1 (x0 : (⟨S100000x256, .f32⟩ : BufTy).Contents (Elt F)) (x1 x2 : (⟨S1600000, .i32⟩ : BufTy).Contents (Elt F))
    (x3 : (⟨S256x128, .f32⟩ : BufTy).Contents (Elt F)) :
    val_main_v24 (F := F) x0 x1 x2 x3 = aggregate128 (val_main_v14 (F := F) x0 x1 x3) x1 x2 := rfl

/-- A vector of 100000 entries reshaped to a column, read at (r, 0). -/
theorem column_apply {α : Type} (y : S100000.Idx → α) (h : S100000.ShapeCasts S100000x1) (r : Fin 100000) :
    shapeCast S100000x1 y h (ix2 r (0 : Fin 1)) = y (ix1 r) :=
  shapeCast_apply y h (ix2 r (0 : Fin 1)) (ix1 r) (by
    rw [Shape.rowMajor_val_one, Shape.rowMajor_val_two]; show r.val = r.val * 1 + 0; omega)

/-- A vector of 128 entries reshaped to a row, read at (0, q). -/
theorem row128_apply {α : Type} (b : S128.Idx → α) (h : S128.ShapeCasts S1x128) (q : Fin 128) :
    shapeCast S1x128 b h (ix2 (0 : Fin 1) q) = b (ix1 q) :=
  shapeCast_apply b h (ix2 (0 : Fin 1) q) (ix1 q) (by
    rw [Shape.rowMajor_val_one, Shape.rowMajor_val_two]; show q.val = 0 * 128 + q.val; omega)

end

/-! ## The first launch against the reference's matrix product -/

theorem lidx14 (i : S100000x128.Idx) (k : Fin 256) :
    lidx_main_v14 i k = ix2 (⟨(i 0).val, (i 0).isLt⟩ : Fin 100000) k :=
  funext fun a => match a with | ⟨0, _⟩ => rfl | ⟨1, _⟩ => rfl
theorem ridx14 (i : S100000x128.Idx) (k : Fin 256) :
    ridx_main_v14 i k = ix2 k (⟨(i 1).val, (i 1).isLt⟩ : Fin 128) :=
  funext fun a => match a with | ⟨0, _⟩ => rfl | ⟨1, _⟩ => rfl
theorem scaleIdx14 (r : Fin 100000) (k : Fin 256) : idx_main_v11 (idx_main_v12 (ix2 r k)) = ix1 r :=
  funext fun a => match a with | ⟨0, _⟩ => rfl

/-- The rows scaled by the column of out-degree scales, times the weights, is the reference's matrix product. -/
theorem dense1 (x0 : (⟨S100000x256, .f32⟩ : BufTy).Contents (Elt Ideal)) (x1 : (⟨S1600000, .i32⟩ : BufTy).Contents (Elt Ideal))
    (x3 : (⟨S256x128, .f32⟩ : BufTy).Contents (Elt Ideal)) (h : S100000.ShapeCasts S100000x1) :
    Cert.KernelIdeal.ScaleMatmul1.scaledProduct x0 (shapeCast S100000x1 (degreeScale (F := Ideal) x1) h) x3
      = val_main_v14 (F := Ideal) x0 x1 x3 := by
  funext i
  rw [val_main_v14_apply]
  show ∑ k : Fin 256, (x0 (ix2 (⟨(i 0).val, (i 0).isLt⟩ : Fin 100000) k)
      * shapeCast S100000x1 (degreeScale (F := Ideal) x1) h (ix2 (⟨(i 0).val, (i 0).isLt⟩ : Fin 100000) (0 : Fin 1)))
      * x3 (ix2 k (⟨(i 1).val, (i 1).isLt⟩ : Fin 128)) = _
  refine Finset.sum_congr rfl fun k _ => ?_
  rw [column_apply, lidx14, ridx14, val_main_v13_apply, val_main_v12_apply, val_main_v11_apply, scaleIdx14, outScale1]
  -- both sides are the product (a · s) · b of the same three entries: the feature a, the row's scale s, the weight b
  generalize degreeScale (F := Ideal) x1 (ix1 (⟨(i 0).val, (i 0).isLt⟩ : Fin 100000)) = s
  generalize x0 (ix2 (⟨(i 0).val, (i 0).isLt⟩ : Fin 100000) k) = a
  generalize x3 (ix2 k (⟨(i 1).val, (i 1).isLt⟩ : Fin 128)) = b
  rfl

/-! ## The second launch against the reference's scale, bias and clamp -/

theorem entry128 (i : S100000x128.Idx) :
    ix2 (⟨(i 0).val, (i 0).isLt⟩ : Fin 100000) (⟨(i 1).val, (i 1).isLt⟩ : Fin 128) = i :=
  funext fun a => match a with | ⟨0, _⟩ => rfl | ⟨1, _⟩ => rfl
theorem scaleIdx28 (i : S100000x128.Idx) : idx_main_v27 (idx_main_v28 i) = ix1 (⟨(i 0).val, (i 0).isLt⟩ : Fin 100000) :=
  funext fun a => match a with | ⟨0, _⟩ => rfl
theorem biasIdx31 (i : S100000x128.Idx) : idx_main_v30 (idx_main_v31 i) = ix1 (⟨(i 1).val, (i 1).isLt⟩ : Fin 128) :=
  funext fun a => match a with | ⟨0, _⟩ => rfl

/-- The aggregate scaled by the column of in-degree scales, plus the bias row, clamped, is the reference's layer-1 output. -/
theorem epilogue1 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 : (⟨S128, .f32⟩ : BufTy).Contents (Elt Ideal))
    (h : S100000.ShapeCasts S100000x1) (h' : S128.ShapeCasts S1x128) :
    Cert.KernelIdeal.Epilogue1.scaledBiasedClamped (val_main_v24 (F := Ideal) x0 x1 x2 x3)
        (shapeCast S100000x1 (degreeScale (F := Ideal) x2) h) (shapeCast S1x128 x4 h')
      = val_main_v33 (F := Ideal) x0 x1 x2 x3 x4 := by
  funext i
  rw [val_main_v33_apply, val_main_v32_apply, val_main_v29_apply, val_main_v28_apply, val_main_v27_apply, scaleIdx28, inScale1,
    val_main_v31_apply, val_main_v30_apply, biasIdx31, val_main_call2_v0_apply, val_main_call2_cst_apply]
  show max (val_main_v24 (F := Ideal) x0 x1 x2 x3 (ix2 (⟨(i 0).val, (i 0).isLt⟩ : Fin 100000) (⟨(i 1).val, (i 1).isLt⟩ : Fin 128))
      * shapeCast S100000x1 (degreeScale (F := Ideal) x2) h (ix2 (⟨(i 0).val, (i 0).isLt⟩ : Fin 100000) (0 : Fin 1))
      + shapeCast S1x128 x4 h' (ix2 (0 : Fin 1) (⟨(i 1).val, (i 1).isLt⟩ : Fin 128))) (Ideal.ofBits .f32 0x00000000#32) = _
  rw [column_apply, row128_apply, entry128]
  -- both sides are the same expression in three entries: the aggregate a, the row's scale s, the column's bias b
  generalize val_main_v24 (F := Ideal) x0 x1 x2 x3 i = a
  generalize degreeScale (F := Ideal) x2 (ix1 (⟨(i 0).val, (i 0).isLt⟩ : Fin 100000)) = s
  generalize x4 (ix1 (⟨(i 1).val, (i 1).isLt⟩ : Fin 128)) = b
  rfl

end Cert.Bridge

end
-- ==== Proof.ScaleMatmul2.lean ====
/-
  The second scale-and-multiply launch, one block.

  At a grid point the body loads a block x of 4000 rows of the hidden-layer matrix, the 4000 matching entries s of
  the column of row scales, and the whole weight matrix w; it multiplies every row of x by its scale and
  multiplies the result by w on the matrix unit, accumulating into zero.  Over the extended reals the two changes
  of float format in between are the identity and the accumulation into zero is a plain sum, so entry (p, q) of
  what the body stores is  Σ_k (x[p, k] · s[p, 0]) · w[k, q].
-/
import proofs.«139233_j22849226015225_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ScaleMatmul2

open Cert.KernelIdeal Cert.KernelIdeal.Gen Idealize.ShloMosaic Idealize.ShloMosaic.TcCoe
open Idealize.ShloMosaic.ValueIdx

/-- The contraction's left operand index at output (p, q) and contraction position r is (p, r). -/
theorem lhs_row (j : S4000x64.Idx) (r : dot_S4000x128_S128x64_S4000x64_1_0_0_1_n_n.contr.Idx) :
    (dot_S4000x128_S128x64_S4000x64_1_0_0_1_n_n.lhsIdx j r 0).val = (j 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem lhs_col (j : S4000x64.Idx) (r : dot_S4000x128_S128x64_S4000x64_1_0_0_1_n_n.contr.Idx) :
    (dot_S4000x128_S128x64_S4000x64_1_0_0_1_n_n.lhsIdx j r 1).val = (r ⟨0, by decide⟩).val :=
  dot_S4000x128_S128x64_S4000x64_1_0_0_1_n_n.lhsIdx_val_of_single rfl j r
/-- The right operand index there is (r, q). -/
theorem rhs_row (j : S4000x64.Idx) (r : dot_S4000x128_S128x64_S4000x64_1_0_0_1_n_n.contr.Idx) :
    (dot_S4000x128_S128x64_S4000x64_1_0_0_1_n_n.rhsIdx j r 0).val = (r ⟨0, by decide⟩).val :=
  dot_S4000x128_S128x64_S4000x64_1_0_0_1_n_n.rhsIdx_val_of_single rfl j r
theorem rhs_col (j : S4000x64.Idx) (r : dot_S4000x128_S128x64_S4000x64_1_0_0_1_n_n.contr.Idx) :
    (dot_S4000x128_S128x64_S4000x64_1_0_0_1_n_n.rhsIdx j r 1).val = (j 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- A column of 4000 scales broadcast along the 128 columns, read at (p, k), is the scale of row p. -/
theorem scale_bcast_apply (s : S4000x1.Idx → Elt Ideal .f32) (p : Fin 4000) (k : Fin 128) :
    broadcastTo S4000x128 (shapeCast S4000x1 s shapeCasts_S4000x1_S4000x1) broadcasts_S4000x1_S4000x128 (ix2 p k)
      = s (ix2 p (0 : Fin 1)) := by
  rw [shapeCast_self]
  exact broadcastTo_apply s broadcasts_S4000x1_S4000x128 (ix2 p k) (ix2 p (0 : Fin 1)) (fun a => match a with
    | ⟨0, _⟩ => by show p.val = if (4000 : Nat) = 1 then 0 else p.val; rw [if_neg (by decide)]
    | ⟨1, _⟩ => by show 0 = if (1 : Nat) = 1 then 0 else k.val; rw [if_pos rfl])

/-- What the body stores, at (p, q): the scaled row p of the block against column q of the weights. -/
theorem stored_apply (x : Vec Ideal S4000x128 .f32) (s : Vec Ideal S4000x1 .f32) (w : Vec Ideal S128x64 .f32)
    (p : Fin 4000) (q : Fin 64) :
    k2_pay1 (F := Ideal) x s w (ix2 p q) = ∑ k : Fin 128, (x (ix2 p k) * s (ix2 p (0 : Fin 1))) * w (ix2 k q) := by
  unfold k2_pay1
  refine (Ideal.matmul_constant_zero_apply dot_S4000x128_S128x64_S4000x64_1_0_0_1_n_n none _ _ (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x64_S4000x64_1_0_0_1_n_n.rhsIdx (ix2 p q) ((contrEquiv1 dot_S4000x128_S128x64_S4000x64_1_0_0_1_n_n 128 rfl rfl).symm k) = ix2 k q :=
    funext fun a => Fin.ext (by
      match a with
      | ⟨0, _⟩ => exact (rhs_row _ _).trans hk
      | ⟨1, _⟩ => exact rhs_col _ _)
  rw [el, er]
  show (shapeCast S4000x128 x shapeCasts_S4000x128_S4000x128 (ix2 p k) * broadcastTo S4000x128 (shapeCast S4000x1 s shapeCasts_S4000x1_S4000x1) broadcasts_S4000x1_S4000x128 (ix2 p k)) * w (ix2 k q) = _
  rw [shapeCast_self, scale_bcast_apply]

end Cert.KernelIdeal.ScaleMatmul2

end
-- ==== Proof.ScaleMatmul2Array.lean ====
/-
  The second scale-and-multiply launch, the whole array.

  The grid has 25 points; point t takes rows 4000·t … 4000·t + 3999 of the hidden-layer matrix and of the column of
  row scales, the whole weight matrix, and writes rows 4000·t … 4000·t + 3999 of the result.  The 25 row blocks
  tile the 100000 rows, so after the launch the result array is ONE function of the three arrays the launch found:
  entry (i, j) is  Σ_k (X[i, k] · S[i, 0]) · W[k, j].  This is stated for any contents V of the buffers at the
  moment the launch is entered.
-/
import proofs.«139233_j22849226015225_1_alg».proof.Proof.Gen.KernelIdeal.Frame
import proofs.«139233_j22849226015225_1_alg».proof.Proof.ScaleMatmul2
import Idealize.ShloMosaic.Lib.Pipeline.Value
import Idealize.ShloMosaic.Lib.ValueIdx

noncomputable section

set_option maxRecDepth 16384

namespace Cert.KernelIdeal.ScaleMatmul2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Rows of X scaled by the column S, times W. -/
def scaledProduct (X : S100000x128.Idx → Elt Ideal .f32) (S : S100000x1.Idx → Elt Ideal .f32)
    (W : S128x64.Idx → Elt Ideal .f32) : S100000x64.Idx → Elt Ideal .f32 :=
  fun i => ∑ k : Fin 128, (X (ix2 (⟨(i 0).val, (i 0).isLt⟩ : Fin 100000) k)
      * S (ix2 (⟨(i 0).val, (i 0).isLt⟩ : Fin 100000) (0 : Fin 1))) * W (ix2 k (⟨(i 1).val, (i 1).isLt⟩ : Fin 64))

/-- A block whose rows are rows b·4000 + p of X and of S stores rows b·4000 + p of the scaled product. -/
theorem block_apply (x : Vec Ideal S4000x128 .f32) (s : Vec Ideal S4000x1 .f32) (w : Vec Ideal S128x64 .f32)
    (X : S100000x128.Idx → Elt Ideal .f32) (S : S100000x1.Idx → Elt Ideal .f32) (W : S128x64.Idx → Elt Ideal .f32) (b : Nat)
    (hx : ∀ (p : Fin 4000) (k : Fin 128) (h : b * 4000 + p.val < 100000), x (ix2 p k) = X (ix2 (⟨b * 4000 + p.val, h⟩ : Fin 100000) k))
    (hs : ∀ (p : Fin 4000) (h : b * 4000 + p.val < 100000), s (ix2 p (0 : Fin 1)) = S (ix2 (⟨b * 4000 + p.val, h⟩ : Fin 100000) (0 : Fin 1)))
    (hw : ∀ (k : Fin 128) (q : Fin 64), w (ix2 k q) = W (ix2 k q))
    (p : Fin 4000) (q : Fin 64) (h : b * 4000 + p.val < 100000) :
    k2_pay1 (F := Ideal) x s w (ix2 p q) = scaledProduct X S W (ix2 (⟨b * 4000 + p.val, h⟩ : Fin 100000) q) := by
  rw [stored_apply]
  show _ = ∑ k : Fin 128, (X (ix2 (⟨b * 4000 + p.val, h⟩ : Fin 100000) k) * S (ix2 (⟨b * 4000 + p.val, h⟩ : Fin 100000) (0 : Fin 1))) * W (ix2 k q)
  refine Finset.sum_congr rfl fun k _ => ?_
  rw [hx p k h, hs p h, hw k q]

theorem zeros : (![0, 0] : Fin 2 → Nat) = fun _ => 0 := funext fun a => by fin_cases a <;> rfl

/-- The printed index maps over the 25 points: the three row windows sit at block row t, everything else at 0. -/
theorem points : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the scaled product of the arrays the launch found. -/
theorem flushed_eq (c : Dev nD) (t : Fin cfg2.N) :
    (dat2 V c).flushed 3 t = ((cfg2.win 3).blk t).view.read (Elt Ideal)
      (scaledProduct (V c main_v27) (V c main_v39) (V c main_arg5)) := by
  show (cfg2.win 3).cut (grid2.coords t) ((dat2 V c).after 3 t) = _
  rw [after2_3]
  unfold out2_3
  rw [View.canon_unit_zero zeros]
  simp only [View.ld_unit_zero (S := S4000x128) zeros, View.ld_unit_zero (S := S4000x1) zeros, View.ld_unit_zero (S := S128x64) zeros]
  obtain ⟨e00, e01, e10, e11, e20, e21, e30, e31⟩ := points t
  have ht : t.val < 25 := by have h := t.isLt; have hN : grid2.N = 25 := N_2; exact hN ▸ h
  refine funext fun (j : S4000x64.Idx) => ?_
  obtain ⟨p, q, rfl⟩ : ∃ (p : Fin 4000) (q : Fin 64), j = ix2 p q := ⟨j 0, j 1, eq_ix2 j⟩
  have hrow : t.val * 4000 + p.val < 100000 := by have := p.isLt; omega
  show k2_pay1 (F := Ideal) (iblk2 V c 0 t) (iblk2 V c 1 t) (iblk2 V c 2 t) (ix2 p q)
    = scaledProduct (V c main_v27) (V c main_v39) (V c main_arg5) (((cfg2.win 3).blk t).view.emb (ix2 p q))
  have hi : ((cfg2.win 3).blk t).view.emb (ix2 p q) = ix2 (⟨t.val * 4000 + p.val, hrow⟩ : Fin 100000) q :=
    funext fun a => Fin.ext (by
      match a with
      | ⟨0, _⟩ => show win2_3.index t (0 : Fin 2) * 4000 + 1 * p.val = t.val * 4000 + p.val; omega
      | ⟨1, _⟩ => show win2_3.index t (1 : Fin 2) * 64 + 1 * q.val = q.val; omega)
  rw [hi]
  refine block_apply (iblk2 V c 0 t) (iblk2 V c 1 t) (iblk2 V c 2 t) (V c main_v27) (V c main_v39) (V c main_arg5) t.val ?_ ?_ ?_ p q hrow
  · intro p k h
    show V c main_v27 (((cfg2.win 0).blk t).view.emb (ix2 p k)) = V c main_v27 _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 128 + 1 * k.val = k.val; omega
  · intro p h
    show V c main_v39 (((cfg2.win 1).blk t).view.emb (ix2 p (0 : Fin 1))) = V c main_v39 _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 1 + 1 * 0 = 0; omega
  · intro k q
    show V c main_arg5 (((cfg2.win 2).blk t).view.emb (ix2 k q)) = V c main_arg5 _
    refine congrArg _ (funext fun a => Fin.ext ?_)
    match a with
    | ⟨0, _⟩ => show win2_2.index t (0 : Fin 2) * 128 + 1 * k.val = k.val; omega
    | ⟨1, _⟩ => show win2_2.index t (1 : Fin 2) * 64 + 1 * q.val = q.val; omega

/-- An index of the result array is in point t's block iff each coordinate is in the block's range on its axis. -/
theorem mem_blk (t : Fin cfg2.N) (i : S100000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v43).slice (win2_3.rect t)).set ↔ _
  rw [View.set_slice_whole, Rect.mem_set_unit]
  exact Iff.rfl

/-- Row i of the result is in the block of point i / 4000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 25 := N_2
  have hlt : (i 0).val / 4000 < grid2.N := by rw [hN]; omega
  obtain ⟨-, -, -, -, -, -, e30, e31⟩ := points ⟨(i 0).val / 4000, hlt⟩
  refine ⟨⟨(i 0).val / 4000, hlt⟩, flush2_3 _, ?_⟩
  rw [mem_blk]
  intro a
  match a with
  | ⟨0, _⟩ =>
    show win2_3.index ⟨(i 0).val / 4000, hlt⟩ (0 : Fin 2) * 4000 ≤ (i 0).val
      ∧ (i 0).val < win2_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win2_3.index ⟨(i 0).val / 4000, hlt⟩ (1 : Fin 2) * 64 ≤ (i 1).val
      ∧ (i 1).val < win2_3.index ⟨(i 0).val / 4000, hlt⟩ (1 : Fin 2) * 64 + 64
    rw [e31]; omega

/-- After the launch the result array is the scaled product of the arrays the launch found. -/
theorem final (c : Dev nD) :
    (dat2 V c).arrAt 3 cfg2.N = scaledProduct (V c main_v27) (V c main_v39) (V c main_arg5) :=
  (dat2 V c).arrAt_eq_of_cover 3 _ (fun t _ => flushed_eq V c t) cover

end Cert.KernelIdeal.ScaleMatmul2

end
-- ==== Proof.Epilogue2.lean ====
/-
  The second epilogue launch, one block.

  At a grid point the body loads a block a of 4000 rows of the aggregated matrix, the 4000 matching entries s of
  the column of row scales and the one row b of biases; it multiplies every row of a by its scale and adds the bias row
  (the last layer has no clamp).  Entry (p, q) of what it stores is  a[p, q] · s[p, 0] + b[0, q].
-/
import proofs.«139233_j22849226015225_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Epilogue2

open Cert.KernelIdeal Cert.KernelIdeal.Gen Idealize.ShloMosaic Idealize.ShloMosaic.TcCoe
open Idealize.ShloMosaic.ValueIdx

/-- A column of 4000 scales broadcast along the 64 columns, read at (p, q), is the scale of row p. -/
theorem scale_bcast_apply (s : S4000x1.Idx → Elt Ideal .f32) (p : Fin 4000) (q : Fin 64) :
    broadcastTo S4000x64 (shapeCast S4000x1 s shapeCasts_S4000x1_S4000x1) broadcasts_S4000x1_S4000x64 (ix2 p q)
      = s (ix2 p (0 : Fin 1)) := by
  rw [shapeCast_self]
  exact broadcastTo_apply s broadcasts_S4000x1_S4000x64 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A row of 64 biases broadcast along the 4000 rows, read at (p, q), is the bias of column q. -/
theorem bias_bcast_apply (b : S1x64.Idx → Elt Ideal .f32) (p : Fin 4000) (q : Fin 64) :
    broadcastTo S4000x64 (shapeCast S1x64 b shapeCasts_S1x64_S1x64) broadcasts_S1x64_S4000x64 (ix2 p q)
      = b (ix2 (0 : Fin 1) q) := by
  rw [shapeCast_self]
  exact broadcastTo_apply b broadcasts_S1x64_S4000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- What the body stores, at (p, q). -/
theorem stored_apply (a : Vec Ideal S4000x64 .f32) (s : Vec Ideal S4000x1 .f32) (b : Vec Ideal S1x64 .f32)
    (p : Fin 4000) (q : Fin 64) :
    k3_pay1 (F := Ideal) a s b (ix2 p q)
      = a (ix2 p q) * s (ix2 p (0 : Fin 1)) + b (ix2 (0 : Fin 1) q) := by
  unfold k3_pay1
  show (shapeCast S4000x64 a shapeCasts_S4000x64_S4000x64 (ix2 p q)
      * broadcastTo S4000x64 (shapeCast S4000x1 s shapeCasts_S4000x1_S4000x1) broadcasts_S4000x1_S4000x64 (ix2 p q)
      + broadcastTo S4000x64 (shapeCast S1x64 b shapeCasts_S1x64_S1x64) broadcasts_S1x64_S4000x64 (ix2 p q)) = _
  rw [shapeCast_self, scale_bcast_apply, bias_bcast_apply]

end Cert.KernelIdeal.Epilogue2

end
-- ==== Proof.Epilogue2Array.lean ====
/-
  The second epilogue launch, the whole array.

  The grid has 25 points; point t takes rows 4000·t … 4000·t + 3999 of the aggregated matrix and of the column of
  row scales, the bias row, and writes the same rows of the result.  The row blocks tile the 100000 rows, so after
  the launch the result array is one function of the three arrays the launch found: entry (i, j) is
  A[i, j] · S[i, 0] + B[0, j].  Stated for any contents V of the buffers when the launch is entered.
-/
import proofs.«139233_j22849226015225_1_alg».proof.Proof.Gen.KernelIdeal.Frame
import proofs.«139233_j22849226015225_1_alg».proof.Proof.Epilogue2
import Idealize.ShloMosaic.Lib.Pipeline.Value
import Idealize.ShloMosaic.Lib.ValueIdx

noncomputable section

set_option maxRecDepth 16384

namespace Cert.KernelIdeal.Epilogue2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Rows of A scaled by the column S, plus the bias row B. -/
def scaledBiased (A : S100000x64.Idx → Elt Ideal .f32) (S : S100000x1.Idx → Elt Ideal .f32)
    (B : S1x64.Idx → Elt Ideal .f32) : S100000x64.Idx → Elt Ideal .f32 :=
  fun i => (A (ix2 (⟨(i 0).val, (i 0).isLt⟩ : Fin 100000) (⟨(i 1).val, (i 1).isLt⟩ : Fin 64))
      * S (ix2 (⟨(i 0).val, (i 0).isLt⟩ : Fin 100000) (0 : Fin 1)) + B (ix2 (0 : Fin 1) (⟨(i 1).val, (i 1).isLt⟩ : Fin 64)))

/-- A block whose rows are rows b·4000 + p of A and of S stores rows b·4000 + p of the result. -/
theorem block_apply (a : Vec Ideal S4000x64 .f32) (s : Vec Ideal S4000x1 .f32) (bb : Vec Ideal S1x64 .f32)
    (A : S100000x64.Idx → Elt Ideal .f32) (S : S100000x1.Idx → Elt Ideal .f32) (B : S1x64.Idx → Elt Ideal .f32) (b : Nat)
    (ha : ∀ (p : Fin 4000) (q : Fin 64) (h : b * 4000 + p.val < 100000), a (ix2 p q) = A (ix2 (⟨b * 4000 + p.val, h⟩ : Fin 100000) q))
    (hs : ∀ (p : Fin 4000) (h : b * 4000 + p.val < 100000), s (ix2 p (0 : Fin 1)) = S (ix2 (⟨b * 4000 + p.val, h⟩ : Fin 100000) (0 : Fin 1)))
    (hb : ∀ (q : Fin 64), bb (ix2 (0 : Fin 1) q) = B (ix2 (0 : Fin 1) q))
    (p : Fin 4000) (q : Fin 64) (h : b * 4000 + p.val < 100000) :
    k3_pay1 (F := Ideal) a s bb (ix2 p q) = scaledBiased A S B (ix2 (⟨b * 4000 + p.val, h⟩ : Fin 100000) q) := by
  rw [stored_apply, ha p q h, hs p h, hb q]
  rfl

theorem zeros : (![0, 0] : Fin 2 → Nat) = fun _ => 0 := funext fun a => by fin_cases a <;> rfl

/-- The printed index maps over the 25 points: the three row windows sit at block row t, everything else at 0. -/
theorem points : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the result function of the arrays the launch found. -/
theorem flushed_eq (c : Dev nD) (t : Fin cfg3.N) :
    (dat3 V c).flushed 3 t = ((cfg3.win 3).blk t).view.read (Elt Ideal)
      (scaledBiased (V c main_v53) (V c main_v42) (V c main_v54)) := by
  show (cfg3.win 3).cut (grid3.coords t) ((dat3 V c).after 3 t) = _
  rw [after3_3]
  unfold out3_3
  rw [View.canon_unit_zero zeros]
  simp only [View.ld_unit_zero (S := S4000x64) zeros, View.ld_unit_zero (S := S4000x1) zeros, View.ld_unit_zero (S := S1x64) zeros]
  obtain ⟨e00, e01, e10, e11, e20, e21, e30, e31⟩ := points t
  have ht : t.val < 25 := by have h := t.isLt; have hN : grid3.N = 25 := N_3; exact hN ▸ h
  refine funext fun (j : S4000x64.Idx) => ?_
  obtain ⟨p, q, rfl⟩ : ∃ (p : Fin 4000) (q : Fin 64), j = ix2 p q := ⟨j 0, j 1, eq_ix2 j⟩
  have hrow : t.val * 4000 + p.val < 100000 := by have := p.isLt; omega
  show k3_pay1 (F := Ideal) (iblk3 V c 0 t) (iblk3 V c 1 t) (iblk3 V c 2 t) (ix2 p q)
    = scaledBiased (V c main_v53) (V c main_v42) (V c main_v54) (((cfg3.win 3).blk t).view.emb (ix2 p q))
  have hi : ((cfg3.win 3).blk t).view.emb (ix2 p q) = ix2 (⟨t.val * 4000 + p.val, hrow⟩ : Fin 100000) q :=
    funext fun a => Fin.ext (by
      match a with
      | ⟨0, _⟩ => show win3_3.index t (0 : Fin 2) * 4000 + 1 * p.val = t.val * 4000 + p.val; omega
      | ⟨1, _⟩ => show win3_3.index t (1 : Fin 2) * 64 + 1 * q.val = q.val; omega)
  rw [hi]
  refine block_apply (iblk3 V c 0 t) (iblk3 V c 1 t) (iblk3 V c 2 t) (V c main_v53) (V c main_v42) (V c main_v54) t.val ?_ ?_ ?_ p q hrow
  · intro p q h
    show V c main_v53 (((cfg3.win 0).blk t).view.emb (ix2 p q)) = V c main_v53 _
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 64 + 1 * q.val = q.val; omega
  · intro p h
    show V c main_v42 (((cfg3.win 1).blk t).view.emb (ix2 p (0 : Fin 1))) = V c main_v42 _
    refine congrArg _ (funext fun a => Fin.ext ?_)
    match a with
    | ⟨0, _⟩ => show win3_1.index t (0 : Fin 2) * 4000 + 1 * p.val = t.val * 4000 + p.val; omega
    | ⟨1, _⟩ => show win3_1.index t (1 : Fin 2) * 1 + 1 * 0 = 0; omega
  · intro q
    show V c main_v54 (((cfg3.win 2).blk t).view.emb (ix2 (0 : Fin 1) q)) = V c main_v54 _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega

/-- An index of the result array is in point t's block iff each coordinate is in the block's range on its axis. -/
theorem mem_blk (t : Fin cfg3.N) (i : S100000x64.Idx) :
    i ∈ ((cfg3.win 3).blk t).view.set ↔ ∀ a : Fin 2, win3_3.index t a * S4000x64.size a ≤ (i a).val
      ∧ (i a).val < win3_3.index t a * S4000x64.size a + S4000x64.size a := by
  show i ∈ ((View.whole main_v55).slice (win3_3.rect t)).set ↔ _
  rw [View.set_slice_whole, Rect.mem_set_unit]
  exact Iff.rfl

/-- Row i of the result is in the block of point i / 4000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 25 := N_3
  have hlt : (i 0).val / 4000 < grid3.N := by rw [hN]; omega
  obtain ⟨-, -, -, -, -, -, e30, e31⟩ := points ⟨(i 0).val / 4000, hlt⟩
  refine ⟨⟨(i 0).val / 4000, hlt⟩, flush3_3 _, ?_⟩
  rw [mem_blk]
  intro a
  match a with
  | ⟨0, _⟩ =>
    show win3_3.index ⟨(i 0).val / 4000, hlt⟩ (0 : Fin 2) * 4000 ≤ (i 0).val
      ∧ (i 0).val < win3_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win3_3.index ⟨(i 0).val / 4000, hlt⟩ (1 : Fin 2) * 64 ≤ (i 1).val
      ∧ (i 1).val < win3_3.index ⟨(i 0).val / 4000, hlt⟩ (1 : Fin 2) * 64 + 64
    rw [e31]; omega

/-- After the launch the result array is that function of the arrays the launch found. -/
theorem final (c : Dev nD) :
    (dat3 V c).arrAt 3 cfg3.N = scaledBiased (V c main_v53) (V c main_v42) (V c main_v54) :=
  (dat3 V c).arrAt_eq_of_cover 3 _ (fun t _ => flushed_eq V c t) cover

end Cert.KernelIdeal.Epilogue2

end
-- ==== Proof.BridgeLayer2.lean ====
/-
  Layer 2: the launches' functions are the reference's stages.

  The second layer repeats the first with the hidden layer in place of the features, 128 columns in place of 256 and
  64 in place of 128, and no clamp at the end: the third launch is the matrix product of the hidden rows, scaled by
  the column of out-degree scales, with the second weight matrix; the fourth scales the aggregate by the column of
  in-degree scales and adds the bias row.  Entry by entry they are the reference's whole-array stages.
-/
import proofs.«139233_j22849226015225_1_alg».proof.Proof.BridgeLayer1
import proofs.«139233_j22849226015225_1_alg».proof.Proof.ScaleMatmul2Array
import proofs.«139233_j22849226015225_1_alg».proof.Proof.Epilogue2Array

noncomputable section

namespace Cert.Bridge

open Cert.ReferenceIdeal Cert.ReferenceIdeal.Gen Cert.ReferenceIdeal.Read Cert.GraphOps
open Idealize.ShloMosaic Idealize.ShloMosaic.ValueIdx

section
variable {F : FTy → Type} [FloatOps F]

theorem outScale2 (x1 : (⟨S1600000, .i32⟩ : BufTy).Contents (Elt F)) : val_main_v44 (F := F) x1 = degreeScale x1 := rfl
theorem inScale2 (x2 : (⟨S1600000, .i32⟩ : BufTy).Contents (Elt F)) : val_main_v60 (F := F) x2 = degreeScale x2 := rfl
theorem aggregated2 (x0 : (⟨S100000x256, .f32⟩ : BufTy).Contents (Elt F)) (x1 x2 : (⟨S1600000, .i32⟩ : BufTy).Contents (Elt F))
    (x3 : (⟨S256x128, .f32⟩ : BufTy).Contents (Elt F)) (x4 : (⟨S128, .f32⟩ : BufTy).Contents (Elt F))
    (x5 : (⟨S128x64, .f32⟩ : BufTy).Contents (Elt F)) :
    val_main_v58 (F := F) x0 x1 x2 x3 x4 x5 = aggregate64 (val_main_v48 (F := F) x0 x1 x2 x3 x4 x5) x1 x2 := rfl

/-- A vector of 64 entries reshaped to a row, read at (0, q). -/
theorem row64_apply {α : Type} (b : S64.Idx → α) (h : S64.ShapeCasts S1x64) (q : Fin 64) :
    shapeCast S1x64 b h (ix2 (0 : Fin 1) q) = b (ix1 q) :=
  shapeCast_apply b h (ix2 (0 : Fin 1) q) (ix1 q) (by
    rw [Shape.rowMajor_val_one, Shape.rowMajor_val_two]; show q.val = 0 * 64 + q.val; omega)

end

/-! ## The third launch against the reference's second matrix product -/

theorem lidx48 (i : S100000x64.Idx) (k : Fin 128) : lidx_main_v48 i k = ix2 (⟨(i 0).val, (i 0).isLt⟩ : Fin 100000) k :=
  funext fun a => match a with | ⟨0, _⟩ => rfl | ⟨1, _⟩ => rfl
theorem ridx48 (i : S100000x64.Idx) (k : Fin 128) : ridx_main_v48 i k = ix2 k (⟨(i 1).val, (i 1).isLt⟩ : Fin 64) :=
  funext fun a => match a with | ⟨0, _⟩ => rfl | ⟨1, _⟩ => rfl
theorem scaleIdx48 (r : Fin 100000) (k : Fin 128) : idx_main_v45 (idx_main_v46 (ix2 r k)) = ix1 r :=
  funext fun a => match a with | ⟨0, _⟩ => rfl

/-- The hidden rows scaled by the column of out-degree scales, times the second weights, is the reference's product. -/
theorem dense2 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 : (⟨S128, .f32⟩ : BufTy).Contents (Elt Ideal))
    (x5 : (⟨S128x64, .f32⟩ : BufTy).Contents (Elt Ideal)) (h : S100000.ShapeCasts S100000x1) :
    Cert.KernelIdeal.ScaleMatmul2.scaledProduct (val_main_v33 (F := Ideal) x0 x1 x2 x3 x4)
        (shapeCast S100000x1 (degreeScale (F := Ideal) x1) h) x5
      = val_main_v48 (F := Ideal) x0 x1 x2 x3 x4 x5 := by
  funext i
  rw [val_main_v48_apply]
  unfold Cert.KernelIdeal.ScaleMatmul2.scaledProduct
  refine Finset.sum_congr rfl fun k _ => ?_
  rw [column_apply, lidx48, ridx48, val_main_v47_apply, val_main_v46_apply, val_main_v45_apply, scaleIdx48, outScale2]
  -- both sides are the product (a · s) · b of the same three entries: the hidden entry a, the row's scale s, the weight b
  generalize degreeScale (F := Ideal) x1 (ix1 (⟨(i 0).val, (i 0).isLt⟩ : Fin 100000)) = s
  generalize val_main_v33 (F := Ideal) x0 x1 x2 x3 x4 (ix2 (⟨(i 0).val, (i 0).isLt⟩ : Fin 100000) k) = a
  generalize x5 (ix2 k (⟨(i 1).val, (i 1).isLt⟩ : Fin 64)) = b
  rfl

/-! ## The fourth launch against the reference's last scale and bias -/

theorem entry64 (i : S100000x64.Idx) : ix2 (⟨(i 0).val, (i 0).isLt⟩ : Fin 100000) (⟨(i 1).val, (i 1).isLt⟩ : Fin 64) = i :=
  funext fun a => match a with | ⟨0, _⟩ => rfl | ⟨1, _⟩ => rfl
theorem scaleIdx62 (i : S100000x64.Idx) : idx_main_v61 (idx_main_v62 i) = ix1 (⟨(i 0).val, (i 0).isLt⟩ : Fin 100000) :=
  funext fun a => match a with | ⟨0, _⟩ => rfl
theorem biasIdx65 (i : S100000x64.Idx) : idx_main_v64 (idx_main_v65 i) = ix1 (⟨(i 1).val, (i 1).isLt⟩ : Fin 64) :=
  funext fun a => match a with | ⟨0, _⟩ => rfl

/-- The aggregate scaled by the column of in-degree scales, plus the bias row, is the reference's result. -/
theorem epilogue2 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (h : S100000.ShapeCasts S100000x1) (h' : S64.ShapeCasts S1x64) :
    Cert.KernelIdeal.Epilogue2.scaledBiased (val_main_v58 (F := Ideal) x0 x1 x2 x3 x4 x5)
        (shapeCast S100000x1 (degreeScale (F := Ideal) x2) h) (shapeCast S1x64 x6 h')
      = val_main_v66 (F := Ideal) x0 x1 x2 x3 x4 x5 x6 := by
  funext i
  rw [val_main_v66_apply, val_main_v63_apply, val_main_v62_apply, val_main_v61_apply, scaleIdx62, inScale2,
    val_main_v65_apply, val_main_v64_apply, biasIdx65]
  unfold Cert.KernelIdeal.Epilogue2.scaledBiased
  rw [column_apply, row64_apply, entry64]
  -- both sides are the same expression in three entries: the aggregate a, the row's scale s, the column's bias b
  generalize val_main_v58 (F := Ideal) x0 x1 x2 x3 x4 x5 i = a
  generalize degreeScale (F := Ideal) x2 (ix1 (⟨(i 0).val, (i 0).isLt⟩ : Fin 100000)) = s
  generalize x6 (ix1 (⟨(i 1).val, (i 1).isLt⟩ : Fin 64)) = b
  rfl

end Cert.Bridge

end
-- ==== Proof.Stages.lean ====
/-
  The four launches along the run.

  Going through the program's segments in order, each launch's result array is a stage of the reference's
  computation, as a function of the seven arguments:
  1. the first launch finds the features, the column of out-degree scales and the first weights, so it leaves the
     reference's first matrix product;
  2. the host aggregates that array along the edges; the second launch finds the aggregate, the column of in-degree
     scales and the first bias row, so it leaves the reference's hidden layer;
  3. the third launch finds the hidden layer, the column of out-degree scales and the second weights, so it leaves
     the reference's second matrix product;
  4. the host aggregates again; the fourth launch finds that aggregate, the column of in-degree scales and the
     second bias row, so it leaves the reference's result.
  Each step is: the array is what the write-backs leave; the blocks tile it, so it is the launch's function of
  what the launch found; what it found is read off the boundary; the function is the reference's stage.
-/
import proofs.«139233_j22849226015225_1_alg».proof.Proof.ResultRun
import proofs.«139233_j22849226015225_1_alg».proof.Proof.Boundaries
import proofs.«139233_j22849226015225_1_alg».proof.Proof.BridgeLayer1
import proofs.«139233_j22849226015225_1_alg».proof.Proof.BridgeLayer2

noncomputable section

set_option maxRecDepth 16384

namespace Cert.KernelIdeal.Stages

open Cert.KernelIdeal Cert.KernelIdeal.Gen Cert.KernelIdeal.Boundaries Cert.GraphOps
open Idealize.ShloMosaic Idealize.ShloMosaic.TcCoe Idealize.SL.Sem

variable (m : (ℓ : Loc nD τ sig) → Buf (Elt Ideal) ℓ) (ρ : Dev nD → PrngReg)

/-- After the first launch: the reference's first matrix product. -/
theorem stage1 (c : Dev nD) :
    W6 m ρ c (Proc.devRef .tc main_v15) = Cert.ReferenceIdeal.Read.val_main_v14 (F := Ideal) (m ((c : Thread nD τ).loc main_arg0)) (m ((c : Thread nD τ).loc main_arg1)) (m ((c : Thread nD τ).loc main_arg3)) := by
  rw [W6_v15, ScaleMatmul1.final (V5 m ρ) c]
  show ScaleMatmul1.scaledProduct (W5 m ρ c (Proc.devRef .tc main_arg0)) (W5 m ρ c (Proc.devRef .tc main_v11)) (W5 m ρ c (Proc.devRef .tc main_arg3)) = _
  rw [W5_arg0, W5_v11, W5_arg3]
  exact Cert.Bridge.dense1 (m ((c : Thread nD τ).loc main_arg0)) (m ((c : Thread nD τ).loc main_arg1)) (m ((c : Thread nD τ).loc main_arg3)) _

/-- After the second launch: the reference's hidden layer. -/
theorem stage2 (c : Dev nD) :
    W8 m ρ c (Proc.devRef .tc main_v27) = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W8_v27, Epilogue1.final (V7 m ρ) c]
  show Epilogue1.scaledBiasedClamped (W7 m ρ c (Proc.devRef .tc main_v25)) (W7 m ρ c (Proc.devRef .tc main_v14)) (W7 m ρ c (Proc.devRef .tc main_v26)) = _
  rw [W7_v25, W7_v14, W7_v26, stage1, ← Cert.Bridge.aggregated1 (m ((c : Thread nD τ).loc main_arg0)) (m ((c : Thread nD τ).loc main_arg1)) (m ((c : Thread nD τ).loc main_arg2)) (m ((c : Thread nD τ).loc main_arg3))]
  exact Cert.Bridge.epilogue1 (m ((c : Thread nD τ).loc main_arg0)) (m ((c : Thread nD τ).loc main_arg1)) (m ((c : Thread nD τ).loc main_arg2)) (m ((c : Thread nD τ).loc main_arg3)) (m ((c : Thread nD τ).loc main_arg4)) _ _

/-- After the third launch: the reference's second matrix product. -/
theorem stage3 (c : Dev nD) :
    W14 m ρ c (Proc.devRef .tc main_v43) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W14_v43, ScaleMatmul2.final (V13 m ρ) c]
  show ScaleMatmul2.scaledProduct (W13 m ρ c (Proc.devRef .tc main_v27)) (W13 m ρ c (Proc.devRef .tc main_v39)) (W13 m ρ c (Proc.devRef .tc main_arg5)) = _
  rw [W13_v27, W13_v39, W13_arg5, stage2]
  exact Cert.Bridge.dense2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _

/-- After the fourth launch: the reference's result. -/
theorem stage4 (c : Dev nD) :
    W16 m ρ c (Proc.devRef .tc main_v55) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W16_v55, Epilogue2.final (V15 m ρ) c]
  show Epilogue2.scaledBiased (W15 m ρ c (Proc.devRef .tc main_v53)) (W15 m ρ c (Proc.devRef .tc main_v42)) (W15 m ρ c (Proc.devRef .tc main_v54)) = _
  rw [W15_v53, W15_v42, W15_v54, stage3, ← Cert.Bridge.aggregated2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))]
  exact Cert.Bridge.epilogue2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _

/-- The idealized kernel's run: its result array ends at the reference's last stage of the arguments, the arguments
    unchanged. -/
theorem run : θ_run defs (onTc (τ := τ) (main (F := Ideal))) ⟨m, fun _ => 0, ρ⟩ (fun r => ∀ c : Dev nD,
      r.2.mem ((c.tc : Thread nD τ).loc main_v55) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (stage4 m ρ c), (h c).2⟩) (Cert.KernelIdeal.ResultRun.run m ρ)

end Cert.KernelIdeal.Stages

end
-- ==== Proof.lean ====
/-
  A two-layer graph convolution, computed by four grid launches, against its whole-array reference.

  Both programs compute, for node features X (100000 × 256), edge lists src and dst (1600000 node indices each),
  weights W1 (256 × 128), W2 (128 × 64) and biases b1, b2,
      H   = max (Aᵀ((d_out ∘ X) W1) ∘ d_in + b1) 0,        result = Aᵀ((d_out ∘ H) W2) ∘ d_in + b2,
  where d_out, d_in are the vectors max(1, degree)^(-1/2) of the source and destination lists, applied row by row,
  and Aᵀ gathers rows at the sources and adds them up at the destinations.

  The kernel evaluates the two dense products and the two scale-and-bias steps in grid launches over blocks of 4000
  rows (the products on the matrix unit, from operands it first converts to a shorter float format); the degree
  scales and the aggregation along the edges it leaves to the same host operations the reference uses.  Over the
  extended reals a change of float format is the identity, a matrix product accumulated into zero is a plain sum,
  and the row blocks tile the arrays, so each launch's result array is one function of the arrays the launch finds,
  entry by entry the expression the reference writes for the whole array.  Nothing beyond that is used: no law of
  arithmetic that could fail at an infinity, so the precondition that the inputs are finite is never opened.

  * frames: the two kernel programs' are generated whole; the reference's is its generated run with the result dropped;
  * the idealization rewrote no operation, so there is nothing to preserve;
  * the value claim: the kernel's run with its result array named (ResultRun), the contents each launch finds
    (Boundaries), each launch's array as one function (ScaleMatmul1/2, Epilogue1/2 and their Array modules), those
    functions as the reference's stages (BridgeLayer1/2), chained along the run (Stages); the reference's side is
    its generated run.
-/
import proofs.«139233_j22849226015225_1_alg».proof.Defs
import proofs.«139233_j22849226015225_1_alg».proof.Proof.Gen.Kernel
import proofs.«139233_j22849226015225_1_alg».proof.Proof.Gen.Kernel.Frame
import proofs.«139233_j22849226015225_1_alg».proof.Proof.Gen.KernelIdeal
import proofs.«139233_j22849226015225_1_alg».proof.Proof.Gen.KernelIdeal.Frame
import proofs.«139233_j22849226015225_1_alg».proof.Proof.Gen.ReferenceIdeal
import proofs.«139233_j22849226015225_1_alg».proof.Proof.Gen.Pre_finite_inputs
import proofs.«139233_j22849226015225_1_alg».proof.Proof.Gen.ReferenceIdeal.Run
import proofs.«139233_j22849226015225_1_alg».proof.Proof.Gen.ReferenceIdeal.Read
import proofs.«139233_j22849226015225_1_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments, the kernel's result array ends at the reference's last stage of
    the arguments, and so does the reference's. -/
theorem algebraic : Cert.algebraic_KernelIdeal_ReferenceIdeal := by
  intro m ρ m' ρ' _ hagree
  refine ⟨_, Cert.KernelIdeal.Stages.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
